-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S256x256 : Shape := ⟨2, ![256, 256]⟩
abbrev S64x1024x1024 : Shape := ⟨3, ![64, 1024, 1024]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S64x1024x256 .f32) (main_arg1 : FVec F S64x1024x256 .f32) (main_arg2 : FVec F S256x256 .f32) (main_arg3 : FVec F S256x256 .f32) (main_arg4 : IVec S64x1024x1024 32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S64x1024x256 .f32 := Host.absf main_arg1
  let main_cst_0 : FVec F S_ .f32 := constant S_ .f32 0x7F800000#32
  let main_v5 : FVec F S64x1024x256 .f32 := broadcastInDim S64x1024x256 ![] bcast_S_S64x1024x256 main_cst_0
  let main_v6 : IVec S64x1024x256 1 := cmpf .olt main_v4 main_v5
  let main_c_1 : IVec S_ 1 := constantI S_ 1 1#1
  let main_v7 : IVec S_ 1 := (fun x v => Host.reduce IntOp.andi x v reducesTo_S64x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S64x1024x256 : Shape := ⟨3, ![64, 1024, 256]⟩
abbrev S256x256 : Shape := ⟨2, ![256, 256]⟩
abbrev S64x1024x1024 : Shape := ⟨3, ![64, 1024, 1024]⟩
abbrev S1x512x256 : Shape := ⟨3, ![1, 512, 256]⟩
abbrev S1x1024x256 : Shape := ⟨3, ![1, 1024, 256]⟩
abbrev S1x512x1024 : Shape := ⟨3, ![1, 512, 1024]⟩
abbrev S1024x256 : Shape := ⟨2, ![1024, 256]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S256x256, .f32⟩
  | .hbm, ⟨3, _⟩ => ⟨S256x256, .f32⟩
  | .hbm, ⟨4, _⟩ => ⟨S64x1024x1024, .i32⟩
  | .hbm, ⟨5, _⟩ => ⟨S64x1024x1024, .f32⟩
  | .local _ .vmem, ⟨0, _⟩ => ⟨S1x512x256, .f32⟩
  | .local _ .vmem, ⟨1, _⟩ => ⟨S1x512x256, .f32⟩
  | .local _ .vmem, ⟨2, _⟩ => ⟨S1x1024x256, .f32⟩
  | .local _ .vmem, ⟨3, _⟩ => ⟨S1x1024x256, .f32⟩
  | .local _ .vmem, ⟨4, _⟩ => ⟨S256x256, .f32⟩
  | .local _ .vmem, ⟨5, _⟩ => ⟨S256x256, .f32⟩
  | .local _ .vmem, ⟨6, _⟩ => ⟨S1x512x1024, .i32⟩
  | .local _ .vmem, ⟨7, _⟩ => ⟨S1x512x1024, .i32⟩
  | .local _ .vmem, ⟨8, _⟩ => ⟨S1x512x1024, .f32⟩
  | .local _ .vmem, ⟨9, _⟩ => ⟨S1x512x1024, .f32⟩
  | .local _ .vmem, ⟨10, _⟩ => ⟨S1024x256, .bf16⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S1024x256_S256x256_S1024x256_1_0_0_1_n_n_wf : DotDims.WF S1024x256 S256x256 S1024x256 [1] [0] [0] [1] [] []
  dot_S512x256_S256x256_S512x256_1_0_0_1_n_n_wf : DotDims.WF S512x256 S256x256 S512x256 [1] [0] [0] [1] [] []
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S64x1024x256.size a
  hwx0_0 : ∀ i : grid0.Coords, EltTy.bits .f32 = 32 ∨ (Rect.block (s := S64x1024x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S64x1024x256.size a
  hwx0_1 : ∀ i : grid0.Coords, EltTy.bits .f32 = 32 ∨ (Rect.block (s := S64x1024x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S64x1024x1024.size a
  hwx0_4 : ∀ i : grid0.Coords, EltTy.bits .i32 = 32 ∨ (Rect.block (s := S64x1024x1024) S1x512x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S64x1024x1024.size a
  hwx0_5 : ∀ i : grid0.Coords, EltTy.bits .f32 = 32 ∨ (Rect.block (s := S64x1024x1024) S1x512x1024.size (cc0_transform_5 i) (hinb0_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S256x256 : Shape := ⟨2, ![256, 256]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 37
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S256x256, .f32⟩
  | .hbm, ⟨3, _⟩ => ⟨S256x256, .f32⟩
  | .hbm, ⟨4, _⟩ => ⟨S64x1024x1024, .i32⟩
  | .hbm, ⟨5, _⟩ => ⟨S64x1024x256, .f32⟩
  | .hbm, ⟨6, _⟩ => ⟨S64x1024x256, .f32⟩
  | .hbm, ⟨7, _⟩ => ⟨S64x1024x1024, .f32⟩
  | .hbm, ⟨8, _⟩ => ⟨S_, .f32⟩
  | .hbm, ⟨9, _⟩ => ⟨S64x1024x1024, .f32⟩
  | .hbm, ⟨10, _⟩ => ⟨S64x1024x1024, .f32⟩
  | .hbm, ⟨11, _⟩ => ⟨S64x1024x1024, .f32⟩
  | .hbm, ⟨12, _⟩ => ⟨S_, .f32⟩
  | .hbm, ⟨13, _⟩ => ⟨S64x1024x1024, .f32⟩
  | .hbm, ⟨14, _⟩ => ⟨S64x1024x1024, .f32⟩
  | .hbm, ⟨15, _⟩ => ⟨S_, .i32⟩
  | .hbm, ⟨16, _⟩ => ⟨S64x1024x1024, .i32⟩
  | .hbm, ⟨17, _⟩ => ⟨S64x1024x1024, .i1⟩
  | .hbm, ⟨18, _⟩ => ⟨S_, .f32⟩
  | .hbm, ⟨19, _⟩ => ⟨S_, .f32⟩
  | .hbm, ⟨20, _⟩ => ⟨S64x1024x1024, .f32⟩
  | .hbm, ⟨21, _⟩ => ⟨S64x1024x1024, .f32⟩
  | .hbm, ⟨22, _⟩ => ⟨S_, .f32⟩
  | .hbm, ⟨23, _⟩ => ⟨S64x1024, .f32⟩
  | .hbm, ⟨24, _⟩ => ⟨S_, .f32⟩
  | .hbm, ⟨25, _⟩ => ⟨S64x1024, .f32⟩
  | .hbm, ⟨26, _⟩ => ⟨S64x1024, .f32⟩
  | .hbm, ⟨27, _⟩ => ⟨S64x1024x1, .f32⟩
  | .hbm, ⟨28, _⟩ => ⟨S64x1024x1024, .f32⟩
  | .hbm, ⟨29, _⟩ => ⟨S64x1024x1024, .f32⟩
  | .hbm, ⟨30, _⟩ => ⟨S64x1024x1024, .f32⟩
  | .hbm, ⟨31, _⟩ => ⟨S_, .f32⟩
  | .hbm, ⟨32, _⟩ => ⟨S64x1024, .f32⟩
  | .hbm, ⟨33, _⟩ => ⟨S64x1024x1, .f32⟩
  | .hbm, ⟨34, _⟩ => ⟨S64x1024x1, .f32⟩
  | .hbm, ⟨35, _⟩ => ⟨S64x1024x1024, .f32⟩
  | .hbm, ⟨36, _⟩ => ⟨S64x1024x1024, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_call1_cst_0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_cst_1 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_v11 : Ref sig .tc := ⟨.hbm, 36, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x256_S256x256_S64x1024x256_2_0_01_1_n_n_wf : DotDims.WF S64x1024x256 S256x256 S64x1024x256 [2] [0] [0, 1] [1] [] []
  dot_S64x1024x256_S64x1024x256_S64x1024x1024_2_2_1_1_0_0_wf : DotDims.WF S64x1024x256 S64x1024x256 S64x1024x1024 [2] [2] [1] [1] [0] [0]

variable [Facts₀]

def dot_S64x1024x256_S256x256_S64x1024x256_2_0_01_1_n_n : DotDims S64x1024x256 S256x256 S64x1024x256 where
  lhsContracting := [2]
  rhsContracting := [0]
  lhsNonContracting := [0, 1]
  rhsNonContracting := [1]
  lhsBatch := []
  rhsBatch := []
  wf := dot_S64x1024x256_S256x256_S64x1024x256_2_0_01_1_n_n_wf
def dot_S64x1024x256_S64x1024x256_S64x1024x1024_2_2_1_1_0_0 : DotDims S64x1024x256 S64x1024x256 S64x1024x1024 where
  lhsContracting := [2]
  rhsContracting := [2]
  lhsNonContracting := [1]
  rhsNonContracting := [1]
  lhsBatch := [0]
  rhsBatch := [0]
  wf := dot_S64x1024x256_S64x1024x256_S64x1024x1024_2_2_1_1_0_0_wf

class Facts : Prop extends Facts₀ where

variable [Facts]
-- ==== Proof.Pieces.lean ====
/-
  What one grid point's body leaves behind, as pure terms of the blocks it loads.

  The body stores twice at most. At the first query tile of a batch it stores the projected keys
  `Kp = (k-block) · wk` into the scratch that is carried to the batch's later tiles; at every tile it stores the
  finished block of the result. Both stores cover their buffer whole, so each buffer afterwards IS the stored value:
  the projected keys as a function of the key block and `wk`, the output block as a function of the query block,
  `wq`, the projected keys (just computed, or carried from the tile before) and the mask block.
-/
import proofs.«174998_j8126078124685_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hand

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a batch's first query tile the scratch ends holding the projected keys of the key block and `wk`. -/
theorem scratch_first (c : Dev nD) (i : grid0.Coords) (arg2 : Memref sig .tc .vmem S1x512x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x512x1024 .i32) (harg6 : arg6.IsWhole) (arg7 : Memref sig .tc .vmem S1x512x1024 .f32) (harg7 : arg7.IsWhole) (arg8 : Memref sig .tc .vmem S1024x256 .bf16) (harg8 : arg8.IsWhole) (hc0 : cond0_0 i) (x0 : Vec F S1x512x256 .f32) (x1 : Vec F S1x1024x256 .f32) (x2 : Vec F S256x256 .f32) (x3 : Vec F S256x256 .f32) (x4 : Vec F S1x512x1024 .i32) :
    sout0_A_0 c i arg2 harg2 arg3 harg3 arg4 harg4 arg5 harg5 arg6 harg6 arg7 harg7 arg8 harg8 hc0 x0 x1 x2 x3 x4 = k0_pay2 x1 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  try sl_unfold_words
  rw [View.canon_unit_zero hz2]
  simp only [View.readAt_eq_ld, harg3.read_unread, harg5.read_unread, View.ld_unit_zero (S := S1x1024x256) hz3,
    View.ld_unit_zero (S := S256x256) hz2]

/-- At a batch's first query tile the output block is computed from the projected keys stored a moment before. -/
theorem out_first (c : Dev nD) (i : grid0.Coords) (arg2 : Memref sig .tc .vmem S1x512x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x512x1024 .i32) (harg6 : arg6.IsWhole) (arg7 : Memref sig .tc .vmem S1x512x1024 .f32) (harg7 : arg7.IsWhole) (arg8 : Memref sig .tc .vmem S1024x256 .bf16) (harg8 : arg8.IsWhole) (hc0 : cond0_0 i) (x0 : Vec F S1x512x256 .f32) (x1 : Vec F S1x1024x256 .f32) (x2 : Vec F S256x256 .f32) (x3 : Vec F S256x256 .f32) (x4 : Vec F S1x512x1024 .i32) :
    out0_A_5 c i arg2 harg2 arg3 harg3 arg4 harg4 arg5 harg5 arg6 harg6 arg7 harg7 arg8 harg8 hc0 x0 x1 x2 x3 x4 = k0_pay1 (k0_pay3 x0 x2 (k0_pay2 x1 x3) x4) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  try sl_unfold_words
  rw [View.canon_unit_zero hz3, View.readCov_unit_zero (S := S1024x256) _ hz2]
  simp only [View.readAt_eq_ld, harg2.read_unread, harg3.read_unread, harg4.read_unread, harg5.read_unread,
    harg6.read_unread, View.ld_unit_zero (S := S1x512x256) hz3, View.ld_unit_zero (S := S1x1024x256) hz3,
    View.ld_unit_zero (S := S256x256) hz2, View.ld_unit_zero (S := S1x512x1024) hz3]

/-- At a later query tile the output block is computed from the projected keys the scratch carried over. -/
theorem out_later (c : Dev nD) (i : grid0.Coords) (arg2 : Memref sig .tc .vmem S1x512x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x512x1024 .i32) (harg6 : arg6.IsWhole) (arg7 : Memref sig .tc .vmem S1x512x1024 .f32) (harg7 : arg7.IsWhole) (arg8 : Memref sig .tc .vmem S1024x256 .bf16) (harg8 : arg8.IsWhole) (hc0 : ¬cond0_0 i) (x0 : Vec F S1x512x256 .f32) (x1 : Vec F S1x1024x256 .f32) (x2 : Vec F S256x256 .f32) (x3 : Vec F S256x256 .f32) (x4 : Vec F S1x512x1024 .i32) (xs0 : Vec F S1024x256 .bf16) :
    out0_B_5 c i arg2 harg2 arg3 harg3 arg4 harg4 arg5 harg5 arg6 harg6 arg7 harg7 arg8 harg8 hc0 x0 x1 x2 x3 x4 xs0 = k0_pay1 (k0_pay3 x0 x2 xs0 x4) := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  try sl_unfold_words
  rw [View.canon_unit_zero hz3]
  simp only [View.readAt_eq_ld, harg2.read_unread, harg4.read_unread, harg6.read_unread, harg8.read_unread,
    View.ld_unit_zero (S := S1x512x256) hz3, View.ld_unit_zero (S := S256x256) hz2,
    View.ld_unit_zero (S := S1024x256) hz2, View.ld_unit_zero (S := S1x512x1024) hz3]

end Cert.KernelIdeal.Hand

end
-- ==== Proof.Spec.lean ====
/-
  Masked, clipped attention scores followed by a row log-softmax, as one function of the argument arrays.

  For a batch `b`, a query row `r` and a key row `j`:
    Qp[b,r,e] = ∑_d q[b,r,d] · wq[d,e],   Kp[b,j,e] = ∑_d k[b,j,d] · wk[d,e],
    s[b,r,j]  = (∑_e Qp[b,r,e] · Kp[b,j,e]) · 2⁻⁴,
    u[b,r,j]  = -10⁸ where mask[b,r,j] = 1, else 10 · tanh s[b,r,j],
    out[b,r,j] = (u[b,r,j] - M) - log ∑_j' exp (u[b,r,j'] - M),   M = max_j' u[b,r,j'] (folded from -∞).
  Everything is stated one ROW at a time over plain `Fin`-indexed families, so that a block of rows of a tiled
  computation and a row of the whole array are instances of the same function.
-/
import Idealize.ShloMosaic.PureOps.Ideal
import Idealize.ShloMosaic.Lib.ValueIdx

noncomputable section

open scoped BigOperators

namespace Cert.Spec

open Idealize.ShloMosaic Idealize.ShloMosaic.ValueIdx

/-- One projected row: `(x W)_e = ∑_d x_d · W[d,e]`. -/
def projRow (x : Fin 256 → EReal) (w : Fin 256 → Fin 256 → EReal) (e : Fin 256) : EReal :=
  ∑ d : Fin 256, x d * w d e

/-- The masked, clipped scores of one projected query row against every projected key row. -/
def logits (qp : Fin 256 → EReal) (kp : Fin 1024 → Fin 256 → EReal) (mk : Fin 1024 → BitVec 32) (j : Fin 1024) : EReal :=
  Scalar.select (IntOp.cmpi .eq (mk j) 1#32) (Ideal.ofBits .f32 0xCCBEBC20#32)
    (Ideal.ofBits .f32 0x41200000#32 * Ideal.tanh ((∑ e : Fin 256, qp e * kp j e) * Ideal.ofBits .f32 0x3D800000#32))

/-- The maximum of a row, folded from the value of the `-∞` pattern. -/
def rowMax (u : Fin 1024 → EReal) : EReal :=
  (Finset.univ : Finset (Fin 1024)).fold max (Ideal.ofBits .f32 0xFF800000#32) u

/-- A row's log-softmax, the row's maximum subtracted first. -/
def logSoftmax (u : Fin 1024 → EReal) (j : Fin 1024) : EReal :=
  (u j - rowMax u) - Ideal.log (∑ k : Fin 1024, Ideal.exp (u k - rowMax u))

/-- One output row from one query row, all key rows, the two weight matrices and one mask row. -/
def attnRow (q : Fin 256 → EReal) (k : Fin 1024 → Fin 256 → EReal) (wq wk : Fin 256 → Fin 256 → EReal)
    (mk : Fin 1024 → BitVec 32) : Fin 1024 → EReal :=
  logSoftmax (logits (projRow q wq) (fun j => projRow (k j) wk) mk)

/-- The result by coordinates: batch `b`, query row `r`, key row `j`. -/
def attnAt (q k : (⟨3, ![64, 1024, 256]⟩ : Shape).Idx → EReal) (wq wk : (⟨2, ![256, 256]⟩ : Shape).Idx → EReal)
    (mask : (⟨3, ![64, 1024, 1024]⟩ : Shape).Idx → BitVec 32) (b : Fin 64) (r j : Fin 1024) : EReal :=
  attnRow (fun d => q (ix3 b r d)) (fun j' d => k (ix3 b j' d)) (fun d e => wq (ix2 d e)) (fun d e => wk (ix2 d e))
    (fun j' => mask (ix3 b r j')) j

/-- The result array. -/
def attn (q k : (⟨3, ![64, 1024, 256]⟩ : Shape).Idx → EReal) (wq wk : (⟨2, ![256, 256]⟩ : Shape).Idx → EReal)
    (mask : (⟨3, ![64, 1024, 1024]⟩ : Shape).Idx → BitVec 32) (i : (⟨3, ![64, 1024, 1024]⟩ : Shape).Idx) : EReal :=
  attnAt q k wq wk mask (i 0) (i 1) (i 2)

theorem attn_ix3 (q k : (⟨3, ![64, 1024, 256]⟩ : Shape).Idx → EReal) (wq wk : (⟨2, ![256, 256]⟩ : Shape).Idx → EReal)
    (mask : (⟨3, ![64, 1024, 1024]⟩ : Shape).Idx → BitVec 32) (b : Fin 64) (r j : Fin 1024) :
    attn q k wq wk mask (ix3 b r j) = attnAt q k wq wk mask b r j := rfl

/-- The reference folds its row maximum from `-∞` and then takes the maximum with `-∞` once more: nothing changes. -/
theorem max_rowMax (u : Fin 1024 → EReal) : max (Ideal.ofBits .f32 0xFF800000#32) (rowMax u) = rowMax u :=
  max_eq_right ((Finset.le_fold_max _).2 (Or.inl le_rfl))

end Cert.Spec

end
-- ==== Proof.Dots.lean ====
/-
  The body's three matrix products read at an output index, at the exact instance: each is the plain sum over the one
  contracted axis of the products of the operands' entries — rows of the left operand against columns of the right
  for the two projections, rows against ROWS for the scores (both operands are contracted along their last axis, so no
  transpose is ever formed). The accumulator is the zero splat and contributes nothing.
-/
import proofs.«174998_j8126078124685_2_alg».proof.Proof.Gen.KernelIdeal
import Idealize.ShloMosaic.Lib.ValueIdx
import Idealize.ShloMosaic.PureOps.Ideal.Laws

noncomputable section

open scoped BigOperators
open Idealize.ShloMosaic Idealize.ShloMosaic.ValueIdx

namespace Cert.KernelIdeal.Hand

open Cert.KernelIdeal Cert.KernelIdeal.Gen

theorem kprojDot_lhs_nc (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem kprojDot_lhs_c (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem kprojDot_rhs_nc (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
theorem kprojDot_rhs_c (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q

/-- The key projection: entry `(p, c)` of `l · r` is `∑_k l[p,k] · r[k,c]`. -/
theorem kprojDot_apply {φ₁ φ₂ : FTy} (l : FVec Ideal S1024x256 φ₁) (r : FVec Ideal S256x256 φ₂) (p : Fin 1024) (c : Fin 256) :
    matmul dot_S1024x256_S256x256_S1024x256_1_0_0_1_n_n none l r (constant (F := Ideal) S1024x256 .f32 0x00000000#32) (ix2 p c)
      = ∑ k : Fin 256, l (ix2 p k) * r (ix2 k c) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p c) ((contrEquiv1 dot_S1024x256_S256x256_S1024x256_1_0_0_1_n_n 256 rfl rfl).symm k) = ix2 p k := funext fun ax => Fin.ext (by
    match ax with
    | ⟨0, _⟩ => exact kprojDot_lhs_nc _ _
    | ⟨1, _⟩ => exact (kprojDot_lhs_c _ _).trans hk)
  have er : dot_S1024x256_S256x256_S1024x256_1_0_0_1_n_n.rhsIdx (ix2 p c) ((contrEquiv1 dot_S1024x256_S256x256_S1024x256_1_0_0_1_n_n 256 rfl rfl).symm k) = ix2 k c := funext fun ax => Fin.ext (by
    match ax with
    | ⟨1, _⟩ => exact kprojDot_rhs_nc _ _
    | ⟨0, _⟩ => exact (kprojDot_rhs_c _ _).trans hk)
  rw [el, er]

theorem qprojDot_lhs_nc (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem qprojDot_lhs_c (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem qprojDot_rhs_nc (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl
theorem qprojDot_rhs_c (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q

/-- The query projection: entry `(p, c)` of `l · r` is `∑_k l[p,k] · r[k,c]`. -/
theorem qprojDot_apply {φ₁ φ₂ : FTy} (l : FVec Ideal S512x256 φ₁) (r : FVec Ideal S256x256 φ₂) (p : Fin 512) (c : Fin 256) :
    matmul dot_S512x256_S256x256_S512x256_1_0_0_1_n_n none l r (constant (F := Ideal) S512x256 .f32 0x00000000#32) (ix2 p c)
      = ∑ k : Fin 256, l (ix2 p k) * r (ix2 k c) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p c) ((contrEquiv1 dot_S512x256_S256x256_S512x256_1_0_0_1_n_n 256 rfl rfl).symm k) = ix2 p k := funext fun ax => Fin.ext (by
    match ax with
    | ⟨0, _⟩ => exact qprojDot_lhs_nc _ _
    | ⟨1, _⟩ => exact (qprojDot_lhs_c _ _).trans hk)
  have er : dot_S512x256_S256x256_S512x256_1_0_0_1_n_n.rhsIdx (ix2 p c) ((contrEquiv1 dot_S512x256_S256x256_S512x256_1_0_0_1_n_n 256 rfl rfl).symm k) = ix2 k c := funext fun ax => Fin.ext (by
    match ax with
    | ⟨1, _⟩ => exact qprojDot_rhs_nc _ _
    | ⟨0, _⟩ => exact (qprojDot_rhs_c _ _).trans hk)
  rw [el, er]

theorem scoreDot_lhs_nc (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem scoreDot_lhs_c (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q
theorem scoreDot_rhs_nc (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem scoreDot_rhs_c (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- The scores: entry `(p, c)` of `l · rᵀ` is `∑_k l[p,k] · r[c,k]`, both operands contracted along their last axis. -/
theorem scoreDot_apply {φ₁ φ₂ : FTy} (l : FVec Ideal S512x256 φ₁) (r : FVec Ideal S1024x256 φ₂) (p : Fin 512) (c : Fin 1024) :
    matmul dot_S512x256_S1024x256_S512x1024_1_1_0_0_n_n none l r (constant (F := Ideal) S512x1024 .f32 0x00000000#32) (ix2 p c)
      = ∑ k : Fin 256, l (ix2 p k) * r (ix2 c k) := by
  simp only [matmul]
  rw [Ideal.matmul_constant_zero_apply, ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 p c) ((contrEquiv1 dot_S512x256_S1024x256_S512x1024_1_1_0_0_n_n 256 rfl rfl).symm k) = ix2 p k := funext fun ax => Fin.ext (by
    match ax with
    | ⟨0, _⟩ => exact scoreDot_lhs_nc _ _
    | ⟨1, _⟩ => exact (scoreDot_lhs_c _ _).trans hk)
  have er : dot_S512x256_S1024x256_S512x1024_1_1_0_0_n_n.rhsIdx (ix2 p c) ((contrEquiv1 dot_S512x256_S1024x256_S512x1024_1_1_0_0_n_n 256 rfl rfl).symm k) = ix2 c k := funext fun ax => Fin.ext (by
    match ax with
    | ⟨0, _⟩ => exact scoreDot_rhs_nc _ _
    | ⟨1, _⟩ => exact (scoreDot_rhs_c _ _).trans hk)
  rw [el, er]

end Cert.KernelIdeal.Hand

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.Payload.lean ====
/-
  The body's arithmetic at an index of its blocks, at the exact instance.

  The stored output block is a log-softmax, row by row, of the masked and clipped scores of the query block against the
  projected keys; the projected keys are the key block times `wk`. Here each is read at a row `p` (and column `j`) and
  identified with the row functions of the specification: the shape casts and format changes are the identity, the three
  products are plain sums over the contracted axis, a row's maximum kept as a column and broadcast back is the fold of
  `max` over the row, a row's sum likewise the sum over the row.
-/
import proofs.«174998_j8126078124685_2_alg».proof.Proof.Gen.KernelIdeal.Skeleton
import proofs.«174998_j8126078124685_2_alg».proof.Proof.Spec
import proofs.«174998_j8126078124685_2_alg».proof.Proof.Dots
import proofs.«174998_j8126078124685_2_alg».proof.Proof.LibKeepdims
import proofs.«174998_j8126078124685_2_alg».proof.Proof.LibHostKeepdims
import Idealize.ShloMosaic.Lib.ValueLayout

noncomputable section

open scoped BigOperators
open Idealize.ShloMosaic Idealize.ShloMosaic.ValueIdx

namespace Cert.KernelIdeal.Hand

open Cert.KernelIdeal Cert.KernelIdeal.Gen

/-! ## The log-softmax of a block of scores, row by row -/

/-- Each row's maximum, kept as a column and broadcast back along the row. -/
def rowMaxB (u : FVec Ideal S512x1024 .f32) : FVec Ideal S512x1024 .f32 :=
  broadcastTo S512x1024 (shapeCast S512x1 (multiReduction .maximumf [1] S512 u 0xFF800000#32 reduces_S512x1024_S512 (.inl rfl) rfl)
    shapeCasts_S512_S512x1) broadcasts_S512x1_S512x1024

/-- The scores with their row's maximum subtracted. -/
def shiftedB (u : FVec Ideal S512x1024 .f32) : FVec Ideal S512x1024 .f32 := subf u (rowMaxB u)

/-- The logarithm of each row's sum of exponentials, kept as a column and broadcast back along the row. -/
def logNormB (u : FVec Ideal S512x1024 .f32) : FVec Ideal S512x1024 .f32 :=
  broadcastTo S512x1024 (log (shapeCast S512x1 (multiReduction .add [1] S512 (exp (shiftedB u)) 0x00000000#32 reduces_S512x1024_S512 (.inl rfl) rfl)
    shapeCasts_S512_S512x1)) broadcasts_S512x1_S512x1024

/-- The block's log-softmax as the body spells it. -/
def lsmB (u : FVec Ideal S512x1024 .f32) : FVec Ideal S512x1024 .f32 := subf (shiftedB u) (logNormB u)

theorem rowMaxB_apply (u : FVec Ideal S512x1024 .f32) (p : Fin 512) (c : Fin 1024) :
    rowMaxB u (ix2 p c) = Spec.rowMax (fun j' => u (ix2 p j')) :=
  (broadcastTo_a1_ab_apply _ broadcasts_S512x1_S512x1024 p c).trans
    ((shapeCast_a_a1_apply _ shapeCasts_S512_S512x1 p 0).trans
      (multiReduction_maximumf_rows_apply u 0xFF800000#32 reduces_S512x1024_S512 (.inl rfl) rfl p))

theorem shiftedB_apply (u : FVec Ideal S512x1024 .f32) (p : Fin 512) (c : Fin 1024) :
    shiftedB u (ix2 p c) = u (ix2 p c) - Spec.rowMax (fun j' => u (ix2 p j')) :=
  congrArg (u (ix2 p c) - ·) (rowMaxB_apply u p c)

theorem logNormB_apply (u : FVec Ideal S512x1024 .f32) (p : Fin 512) (c : Fin 1024) :
    logNormB u (ix2 p c)
      = Ideal.log (∑ k : Fin 1024, Ideal.exp (u (ix2 p k) - Spec.rowMax (fun j' => u (ix2 p j')))) :=
  (broadcastTo_a1_ab_apply _ broadcasts_S512x1_S512x1024 p c).trans
    (congrArg Ideal.log ((shapeCast_a_a1_apply _ shapeCasts_S512_S512x1 p 0).trans
      ((multiReduction_add_rows_apply (exp (shiftedB u)) 0x00000000#32 reduces_S512x1024_S512 (.inl rfl) rfl p).trans
        (Finset.sum_congr rfl fun k _ => congrArg Ideal.exp (shiftedB_apply u p k)))))

/-- Row `p` of the block's log-softmax is the log-softmax of row `p`. -/
theorem lsmB_apply (u : FVec Ideal S512x1024 .f32) (p : Fin 512) (j : Fin 1024) :
    lsmB u (ix2 p j) = Spec.logSoftmax (fun j' => u (ix2 p j')) j := by
  show shiftedB u (ix2 p j) - logNormB u (ix2 p j) = _
  rw [shiftedB_apply, logNormB_apply]
  rfl

/-! ## The masked, clipped scores of a query block against projected keys -/

/-- The projected query block: the query block (its leading unit axis dropped) times `wq`. -/
def qprojB (x0 : Vec Ideal S1x512x256 .f32) (x2 : Vec Ideal S256x256 .f32) : FVec Ideal S512x256 .f32 :=
  matmul dot_S512x256_S256x256_S512x256_1_0_0_1_n_n none
    (truncf .bf16 (shapeCast S512x256 x0 shapeCasts_S1x512x256_S512x256) bitsLt_bf16_f32) (truncf .bf16 x2 bitsLt_bf16_f32)
    (constant S512x256 .f32 0x00000000#32)

/-- The scores as the body spells them: products against the projected keys, scaled, clipped through `tanh`, the masked
    entries replaced. -/
def scoresB (x0 : Vec Ideal S1x512x256 .f32) (x2 : Vec Ideal S256x256 .f32) (xs : FVec Ideal S1024x256 .bf16)
    (x4 : Vec Ideal S1x512x1024 .i32) : FVec Ideal S512x1024 .f32 :=
  select (cmpi .eq (shapeCast S512x1024 x4 shapeCasts_S1x512x1024_S512x1024) (broadcast S512x1024 1#32))
    (broadcast S512x1024 (Scalar.ofBits .f32 0xCCBEBC20#32))
    (mulf (broadcast S512x1024 (Scalar.ofBits .f32 0x41200000#32))
      (tanh (mulf
        (matmul dot_S512x256_S1024x256_S512x1024_1_1_0_0_n_n none (truncf .bf16 (qprojB x0 x2) bitsLt_bf16_f32) xs
          (constant S512x1024 .f32 0x00000000#32))
        (broadcast S512x1024 (Scalar.ofBits .f32 0x3D800000#32)))))

/-- The output payload is the block log-softmax of the scores. -/
theorem pay3_eq (x0 : Vec Ideal S1x512x256 .f32) (x2 : Vec Ideal S256x256 .f32) (xs : FVec Ideal S1024x256 .bf16)
    (x4 : Vec Ideal S1x512x1024 .i32) : k0_pay3 (F := Ideal) x0 x2 xs x4 = lsmB (scoresB x0 x2 xs x4) := rfl

theorem qprojB_apply (x0 : Vec Ideal S1x512x256 .f32) (x2 : Vec Ideal S256x256 .f32) (p : Fin 512) (e : Fin 256) :
    qprojB x0 x2 (ix2 p e) = Spec.projRow (fun d => x0 (ix3 (0 : Fin 1) p d)) (fun d e' => x2 (ix2 d e')) e := by
  unfold qprojB
  refine (qprojDot_apply _ _ p e).trans ?_
  refine Finset.sum_congr rfl fun d _ => ?_
  exact congrArg (· * x2 (ix2 d e)) (shapeCast_1ab_ab_apply x0 shapeCasts_S1x512x256_S512x256 p d)

theorem scoresB_apply (x0 : Vec Ideal S1x512x256 .f32) (x2 : Vec Ideal S256x256 .f32) (xs : FVec Ideal S1024x256 .bf16)
    (x4 : Vec Ideal S1x512x1024 .i32) (p : Fin 512) (j : Fin 1024) :
    scoresB x0 x2 xs x4 (ix2 p j)
      = Spec.logits (Spec.projRow (fun d => x0 (ix3 (0 : Fin 1) p d)) (fun d e => x2 (ix2 d e)))
          (fun j' e => xs (ix2 j' e)) (fun j' => x4 (ix3 (0 : Fin 1) p j')) j := by
  have hm : shapeCast S512x1024 x4 shapeCasts_S1x512x1024_S512x1024 (ix2 p j) = x4 (ix3 (0 : Fin 1) p j) :=
    shapeCast_1ab_ab_apply x4 shapeCasts_S1x512x1024_S512x1024 p j
  have hd : matmul dot_S512x256_S1024x256_S512x1024_1_1_0_0_n_n none (truncf .bf16 (qprojB x0 x2) bitsLt_bf16_f32) xs
        (constant (F := Ideal) S512x1024 .f32 0x00000000#32) (ix2 p j)
      = ∑ e : Fin 256, Spec.projRow (fun d => x0 (ix3 (0 : Fin 1) p d)) (fun d e' => x2 (ix2 d e')) e * xs (ix2 j e) :=
    (scoreDot_apply _ _ p j).trans (Finset.sum_congr rfl fun e _ => congrArg (· * xs (ix2 j e)) (qprojB_apply x0 x2 p e))
  show Scalar.select (IntOp.cmpi .eq (shapeCast S512x1024 x4 shapeCasts_S1x512x1024_S512x1024 (ix2 p j)) 1#32)
      (Ideal.ofBits .f32 0xCCBEBC20#32)
      (Ideal.ofBits .f32 0x41200000#32 * Ideal.tanh
        (matmul dot_S512x256_S1024x256_S512x1024_1_1_0_0_n_n none (truncf .bf16 (qprojB x0 x2) bitsLt_bf16_f32) xs
          (constant (F := Ideal) S512x1024 .f32 0x00000000#32) (ix2 p j) * Ideal.ofBits .f32 0x3D800000#32)) = _
  rw [hm, hd]
  rfl

/-! ## The projected keys -/

/-- The scratch payload at `(j, e)`: the key block's row `j` times column `e` of `wk`. -/
theorem pay2_apply (x1 : Vec Ideal S1x1024x256 .f32) (x3 : Vec Ideal S256x256 .f32) (j : Fin 1024) (e : Fin 256) :
    k0_pay2 (F := Ideal) x1 x3 (ix2 j e) = Spec.projRow (fun d => x1 (ix3 (0 : Fin 1) j d)) (fun d e' => x3 (ix2 d e')) e := by
  unfold k0_pay2
  try dsimp only
  rw [shapeCast_self]
  refine (kprojDot_apply (truncf .bf16 (shapeCast S1024x256 x1 shapeCasts_S1x1024x256_S1024x256) bitsLt_bf16_f32)
    (truncf .bf16 x3 bitsLt_bf16_f32) j e).trans ?_
  refine Finset.sum_congr rfl fun d _ => ?_
  exact congrArg (· * x3 (ix2 d e)) (shapeCast_1ab_ab_apply x1 shapeCasts_S1x1024x256_S1024x256 j d)

/-! ## The output block at an index -/

/-- The output block at `(0, p, j)`, computed from a query block, `wq`, the projected keys of a key block and `wk`, and a
    mask block: one row of the specification. -/
theorem out_apply (x0 : Vec Ideal S1x512x256 .f32) (x1 : Vec Ideal S1x1024x256 .f32) (x2 x3 : Vec Ideal S256x256 .f32)
    (x4 : Vec Ideal S1x512x1024 .i32) (u : Fin 1) (p : Fin 512) (j : Fin 1024) :
    k0_pay1 (F := Ideal) (k0_pay3 x0 x2 (k0_pay2 x1 x3) x4) (ix3 u p j)
      = Spec.attnRow (fun d => x0 (ix3 (0 : Fin 1) p d)) (fun j' d => x1 (ix3 (0 : Fin 1) j' d))
          (fun d e => x2 (ix2 d e)) (fun d e => x3 (ix2 d e)) (fun j' => x4 (ix3 (0 : Fin 1) p j')) j := by
  unfold k0_pay1
  refine (shapeCast_ab_1ab_apply _ shapeCasts_S512x1024_S1x512x1024 u p j).trans ?_
  rw [pay3_eq, lsmB_apply]
  unfold Spec.attnRow
  refine congrArg (fun f => Spec.logSoftmax f j) (funext fun j' => ?_)
  rw [scoresB_apply]
  refine congrArg (fun kp => Spec.logits _ kp _ j') (funext fun j'' => funext fun e => ?_)
  exact pay2_apply x1 x3 j'' e

end Cert.KernelIdeal.Hand

end
-- ==== Proof.Blocks.lean ====
/-
  From grid points to the result array.

  Grid point `t` is batch `t / 2`, query tile `t % 2`. Its query, mask and output blocks are rows
  `512 · (t % 2) … 512 · (t % 2) + 511` of batch `t / 2`; its key block is all of batch `t / 2`; the two weight
  blocks are the weight matrices. The projected keys a point reads were stored by the batch's first point (the point
  itself, or the one before), from the same batch's key block. So what point `t` writes back is its block of the
  specification's array, and the 128 blocks tile the array.
-/
import proofs.«174998_j8126078124685_2_alg».proof.Proof.Gen.KernelIdeal.Value
import proofs.«174998_j8126078124685_2_alg».proof.Proof.Pieces
import proofs.«174998_j8126078124685_2_alg».proof.Proof.Payload

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

/-- The result array as the specification's function of the argument arrays as the region finds them. -/
abbrev G (c : Dev nD) : S64x1024x1024.Idx → Elt Ideal .f32 :=
  Spec.attn (V m c main_arg0) (V m c main_arg1) (V m c main_arg2) (V m c main_arg3) (V m c main_arg4)

/-- The printed index maps, decided once over the grid's 128 points. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 2 ∧ win0_4.index t (1 : Fin 3) = t.val % 2 ∧ win0_4.index t (2 : Fin 3) = 0
    ∧ win0_5.index t (0 : Fin 3) = t.val / 2 ∧ win0_5.index t (1 : Fin 3) = t.val % 2 ∧ win0_5.index t (2 : Fin 3) = 0 :=
  (by decide +kernel : ∀ t : Fin grid0.N, _)

/-! ## The input blocks as rows of the argument arrays -/

/-- The query block at point `t`: rows `512 (t % 2) + p` of batch `t / 2`. -/
theorem qblk_apply (c : Dev nD) (t : Fin cfg0.N) (u : Fin 1) (p : Fin 512) (d : Fin 256) (b : Fin 64) (r : Fin 1024)
    (hb : b.val = t.val / 2) (hr : r.val = 512 * (t.val % 2) + p.val) :
    (iblk m c 0 t : Vec Ideal S1x512x256 .f32) (ix3 u p d) = (V m c main_arg0 : S64x1024x256.Idx → Elt Ideal .f32) (ix3 b r d) := by
  obtain ⟨e0, e1, e2, -⟩ := idx_facts t
  have hu : u.val = 0 := by omega
  unfold iblk
  rw [View.read_apply]
  show V m c main_arg0 _ = V m c main_arg0 _
  congr 1
  funext a
  apply Fin.ext
  match a with
  | ⟨0, _⟩ => show win0_0.index t 0 * 1 + 1 * u.val = b.val; rw [e0, hb, hu]; omega
  | ⟨1, _⟩ => show win0_0.index t 1 * 512 + 1 * p.val = r.val; rw [e1, hr]; omega
  | ⟨2, _⟩ => show win0_0.index t 2 * 256 + 1 * d.val = d.val; rw [e2]; omega

/-- The key block at point `s`: every row of batch `s / 2`. -/
theorem kblk_apply (c : Dev nD) (s : Fin cfg0.N) (u : Fin 1) (j : Fin 1024) (d : Fin 256) (b : Fin 64)
    (hb : b.val = s.val / 2) :
    (iblk m c 1 s : Vec Ideal S1x1024x256 .f32) (ix3 u j d) = (V m c main_arg1 : S64x1024x256.Idx → Elt Ideal .f32) (ix3 b j d) := by
  obtain ⟨-, -, -, e0, e1, e2, -⟩ := idx_facts s
  have hu : u.val = 0 := by omega
  unfold iblk
  rw [View.read_apply]
  show V m c main_arg1 _ = V m c main_arg1 _
  congr 1
  funext a
  apply Fin.ext
  match a with
  | ⟨0, _⟩ => show win0_1.index s 0 * 1 + 1 * u.val = b.val; rw [e0, hb, hu]; omega
  | ⟨1, _⟩ => show win0_1.index s 1 * 1024 + 1 * j.val = j.val; rw [e1]; omega
  | ⟨2, _⟩ => show win0_1.index s 2 * 256 + 1 * d.val = d.val; rw [e2]; omega

/-- The first weight block at any point is `wq`. -/
theorem wqblk_apply (c : Dev nD) (t : Fin cfg0.N) (d e : Fin 256) :
    (iblk m c 2 t : Vec Ideal S256x256 .f32) (ix2 d e) = (V m c main_arg2 : S256x256.Idx → Elt Ideal .f32) (ix2 d e) := by
  obtain ⟨-, -, -, -, -, -, e0, e1, -⟩ := idx_facts t
  unfold iblk
  rw [View.read_apply]
  show V m c main_arg2 _ = V m c main_arg2 _
  congr 1
  funext a
  apply Fin.ext
  match a with
  | ⟨0, _⟩ => show win0_2.index t 0 * 256 + 1 * d.val = d.val; rw [e0]; omega
  | ⟨1, _⟩ => show win0_2.index t 1 * 256 + 1 * e.val = e.val; rw [e1]; omega

/-- The second weight block at any point is `wk`. -/
theorem wkblk_apply (c : Dev nD) (t : Fin cfg0.N) (d e : Fin 256) :
    (iblk m c 3 t : Vec Ideal S256x256 .f32) (ix2 d e) = (V m c main_arg3 : S256x256.Idx → Elt Ideal .f32) (ix2 d e) := by
  obtain ⟨-, -, -, -, -, -, -, -, e0, e1, -⟩ := idx_facts t
  unfold iblk
  rw [View.read_apply]
  show V m c main_arg3 _ = V m c main_arg3 _
  congr 1
  funext a
  apply Fin.ext
  match a with
  | ⟨0, _⟩ => show win0_3.index t 0 * 256 + 1 * d.val = d.val; rw [e0]; omega
  | ⟨1, _⟩ => show win0_3.index t 1 * 256 + 1 * e.val = e.val; rw [e1]; omega

/-- The mask block at point `t`: rows `512 (t % 2) + p` of batch `t / 2`. -/
theorem mblk_apply (c : Dev nD) (t : Fin cfg0.N) (u : Fin 1) (p : Fin 512) (j : Fin 1024) (b : Fin 64) (r : Fin 1024)
    (hb : b.val = t.val / 2) (hr : r.val = 512 * (t.val % 2) + p.val) :
    (iblk m c 4 t : Vec Ideal S1x512x1024 .i32) (ix3 u p j) = (V m c main_arg4 : S64x1024x1024.Idx → Elt Ideal .i32) (ix3 b r j) := by
  obtain ⟨-, -, -, -, -, -, -, -, -, -, e0, e1, e2, -⟩ := idx_facts t
  have hu : u.val = 0 := by omega
  unfold iblk
  rw [View.read_apply]
  show V m c main_arg4 _ = V m c main_arg4 _
  congr 1
  funext a
  apply Fin.ext
  match a with
  | ⟨0, _⟩ => show win0_4.index t 0 * 1 + 1 * u.val = b.val; rw [e0, hb, hu]; omega
  | ⟨1, _⟩ => show win0_4.index t 1 * 512 + 1 * p.val = r.val; rw [e1, hr]; omega
  | ⟨2, _⟩ => show win0_4.index t 2 * 1024 + 1 * j.val = j.val; rw [e2]; omega

/-! ## What a point leaves in its output block -/

/-- An output block computed at point `t` from projected keys that a point `s` of the same batch stored is `t`'s block
    of the specification's array. -/
theorem block_eq (c : Dev nD) (t s : Fin cfg0.N) (hs : s.val / 2 = t.val / 2) (u : Fin 1) (p : Fin 512) (j : Fin 1024)
    (b : Fin 64) (r : Fin 1024) (hb : b.val = t.val / 2) (hr : r.val = 512 * (t.val % 2) + p.val) :
    k0_pay1 (F := Ideal) (k0_pay3 (iblk m c 0 t) (iblk m c 2 t) (k0_pay2 (iblk m c 1 s) (iblk m c 3 s)) (iblk m c 4 t)) (ix3 u p j)
      = G m c (ix3 b r j) := by
  refine (out_apply (iblk m c 0 t) (iblk m c 1 s) (iblk m c 2 t) (iblk m c 3 s) (iblk m c 4 t) u p j).trans ?_
  show _ = Spec.attnRow (fun d => (V m c main_arg0 : S64x1024x256.Idx → Elt Ideal .f32) (ix3 b r d))
    (fun j' d => (V m c main_arg1 : S64x1024x256.Idx → Elt Ideal .f32) (ix3 b j' d))
    (fun d e => (V m c main_arg2 : S256x256.Idx → Elt Ideal .f32) (ix2 d e))
    (fun d e => (V m c main_arg3 : S256x256.Idx → Elt Ideal .f32) (ix2 d e))
    (fun j' => (V m c main_arg4 : S64x1024x1024.Idx → Elt Ideal .i32) (ix3 b r j')) j
  have h0 : (fun d => (iblk m c 0 t : Vec Ideal S1x512x256 .f32) (ix3 (0 : Fin 1) p d))
      = fun d => (V m c main_arg0 : S64x1024x256.Idx → Elt Ideal .f32) (ix3 b r d) :=
    funext fun d => qblk_apply m c t 0 p d b r hb hr
  have h1 : (fun j' d => (iblk m c 1 s : Vec Ideal S1x1024x256 .f32) (ix3 (0 : Fin 1) j' d))
      = fun j' d => (V m c main_arg1 : S64x1024x256.Idx → Elt Ideal .f32) (ix3 b j' d) :=
    funext fun j' => funext fun d => kblk_apply m c s 0 j' d b (hb.trans hs.symm)
  have h2 : (fun d e => (iblk m c 2 t : Vec Ideal S256x256 .f32) (ix2 d e))
      = fun d e => (V m c main_arg2 : S256x256.Idx → Elt Ideal .f32) (ix2 d e) :=
    funext fun d => funext fun e => wqblk_apply m c t d e
  have h3 : (fun d e => (iblk m c 3 s : Vec Ideal S256x256 .f32) (ix2 d e))
      = fun d e => (V m c main_arg3 : S256x256.Idx → Elt Ideal .f32) (ix2 d e) :=
    funext fun d => funext fun e => wkblk_apply m c s d e
  have h4 : (fun j' => (iblk m c 4 t : Vec Ideal S1x512x1024 .i32) (ix3 (0 : Fin 1) p j'))
      = fun j' => (V m c main_arg4 : S64x1024x1024.Idx → Elt Ideal .i32) (ix3 b r j') :=
    funext fun j' => mblk_apply m c t 0 p j' b r hb hr
  rw [h0, h1, h2, h3, h4]

/-- After a batch's first point the scratch holds the projected keys of that point's key block. -/
theorem scratch_after (c : Dev nD) (s : Fin cfg0.N) (hs : s.val % 2 = 0) :
    (outsAt0 m c s.val s.isLt).2 = k0_pay2 (F := Ideal) (iblk m c 1 s) (iblk m c 3 s) := by
  rw [outsAt0_A m c s hs]
  dsimp only
  exact scratch_first (F := Ideal) _ _ _ _ _ _ _ _ _ _ _ _ _ _ _ _ _ _ _ _ _ _

/-- What point `t` leaves in the output's staging buffer, at `(0, p, j)`: the specification at batch `t / 2`, row
    `512 (t % 2) + p`, column `j`. -/
theorem after_apply (c : Dev nD) (t : Fin cfg0.N) (u : Fin 1) (p : Fin 512) (j : Fin 1024)
    (b : Fin 64) (r : Fin 1024) (hb : b.val = t.val / 2) (hr : r.val = 512 * (t.val % 2) + p.val) :
    ((outsAt0 m c t.val t.isLt).1 : Vec Ideal S1x512x1024 .f32) (ix3 u p j) = G m c (ix3 b r j) := by
  have hN : t.val < 128 := lt_of_lt_of_eq t.isLt (show cfg0.N = 128 from N_0)
  by_cases h0 : t.val % 2 = 0
  · rw [outsAt0_A m c t h0]
    dsimp only
    rw [out_first (F := Ideal)]
    exact block_eq m c t t rfl u p j b r hb hr
  · rw [outsAt0_B m c t h0]
    dsimp only
    rw [out_later (F := Ideal)]
    have hlt : t.val - 1 < cfg0.N := Nat.lt_of_le_of_lt (Nat.sub_le _ _) t.isLt
    have hx : (outsAt0 m c (t.val - 1) hlt).2
        = k0_pay2 (F := Ideal) (iblk m c 1 (⟨t.val - 1, hlt⟩ : Fin cfg0.N)) (iblk m c 3 (⟨t.val - 1, hlt⟩ : Fin cfg0.N)) :=
      scratch_after m c ⟨t.val - 1, hlt⟩ (by show (t.val - 1) % 2 = 0; omega)
    rw [hx]
    exact block_eq m c t ⟨t.val - 1, hlt⟩ (by show (t.val - 1) / 2 = t.val / 2; omega) u p j b r hb hr

/-! ## The write-backs and the array -/

/-- What point `t` writes back is block `t` of the specification's array. -/
theorem flushed_eq (c : Dev nD) (t : Fin cfg0.N) :
    (dats m 0 c).flushed 5 t = ((cfg0.win 5).blk t).view.read (Elt Ideal) (G m c) := by
  have hN : t.val < 128 := lt_of_lt_of_eq t.isLt (show cfg0.N = 128 from N_0)
  obtain ⟨-, -, -, -, -, -, -, -, -, -, -, -, -, e0, e1, e2⟩ := idx_facts t
  rw [flushed5]
  funext y
  obtain ⟨u, p, j, rfl⟩ : ∃ (u : Fin 1) (p : Fin 512) (j : Fin 1024), y = ix3 u p j := ⟨y 0, y 1, y 2, eq_ix3 y⟩
  have hu : u.val = 0 := by omega
  rw [View.read_apply]
  show ((outsAt0 m c t.val t.isLt).1 : Vec Ideal S1x512x1024 .f32) (ix3 u p j) = G m c _
  rw [after_apply m c t u p j ⟨t.val / 2, by omega⟩ ⟨512 * (t.val % 2) + p.val, by omega⟩ rfl rfl]
  congr 1
  funext a
  apply Fin.ext
  match a with
  | ⟨0, _⟩ => show t.val / 2 = win0_5.index t 0 * 1 + 1 * u.val; rw [e0, hu]; omega
  | ⟨1, _⟩ => show 512 * (t.val % 2) + p.val = win0_5.index t 1 * 512 + 1 * p.val; rw [e1]; omega
  | ⟨2, _⟩ => show j.val = win0_5.index t 2 * 1024 + 1 * j.val; rw [e2]; omega

/-- An index of the array is in point `t`'s block iff each coordinate is in the block's range on its axis. -/
theorem mem_blk (t : Fin cfg0.N) (i : S64x1024x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v0).slice (win0_5.rect t)).set ↔ _
  rw [View.set_slice_whole, Rect.mem_set_unit]
  exact Iff.rfl

/-- Every index of the array is in the block of the point of its batch and query tile. -/
theorem cover (i : S64x1024x1024.Idx) :
    ∃ t : Fin cfg0.N, (cfg0.win 5).flush t = true ∧ i ∈ ((cfg0.win 5).blk t).view.set := by
  have hi0 : (i 0).val < 64 := (i 0).isLt
  have hi1 : (i 1).val < 1024 := (i 1).isLt
  have hi2 : (i 2).val < 1024 := (i 2).isLt
  have hN : cfg0.N = 128 := N_0
  refine ⟨⟨2 * (i 0).val + (i 1).val / 512, by rw [hN]; omega⟩, flush0_5 _, ?_⟩
  obtain ⟨-, -, -, -, -, -, -, -, -, -, -, -, -, e0, e1, e2⟩ :=
    idx_facts ⟨2 * (i 0).val + (i 1).val / 512, by rw [hN]; omega⟩
  rw [mem_blk]
  intro a
  match a with
  | ⟨0, _⟩ =>
    show win0_5.index _ 0 * 1 ≤ (i 0).val ∧ (i 0).val < win0_5.index _ 0 * 1 + 1
    rw [e0]; show (2 * (i 0).val + (i 1).val / 512) / 2 * 1 ≤ (i 0).val ∧ (i 0).val < (2 * (i 0).val + (i 1).val / 512) / 2 * 1 + 1
    omega
  | ⟨1, _⟩ =>
    show win0_5.index _ 1 * 512 ≤ (i 1).val ∧ (i 1).val < win0_5.index _ 1 * 512 + 512
    rw [e1]; show (2 * (i 0).val + (i 1).val / 512) % 2 * 512 ≤ (i 1).val ∧ (i 1).val < (2 * (i 0).val + (i 1).val / 512) % 2 * 512 + 512
    omega
  | ⟨2, _⟩ =>
    show win0_5.index _ 2 * 1024 ≤ (i 2).val ∧ (i 2).val < win0_5.index _ 2 * 1024 + 1024
    rw [e2]; omega

/-- The result array after the run is the specification's array. -/
theorem final (c : Dev nD) : (dats m 0 c).arrAt 5 cfg0.N = G m c :=
  (dats m 0 c).arrAt_eq_of_cover 5 (G m c) (fun t _ => flushed_eq m c t) cover

/-- The kernel's run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Hand

end
-- ==== Proof.RefRun.lean ====
/-
  The reference program's run, read back.

  @main of the reference is a straight line of 32 host operations (the two functions it calls, the masking select and
  the log-softmax, stand in their calls' places, operation by operation, on the calls' own buffers). Run from any
  memory, every weakly fair execution terminates with each buffer at the fold of the operations over the launch
  contents; the result buffer's fold is the composition of the 32 stages, named one at a time (`val_main_v11`), of the
  five argument arrays, and the argument buffers are written by no operation.
-/
import proofs.«174998_j8126078124685_2_alg».proof.Proof.Gen.ReferenceIdeal
import proofs.«174998_j8126078124685_2_alg».proof.Proof.RefRead
import Idealize.ShloMosaic.Lib.StableHlo.Run
import Idealize.ShloMosaic.Lib.Pipeline.Regions

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 32 operations, in order, each on the buffers it reads and the buffer it writes. -/
abbrev ops : List (HloOp τ sig (Elt F)) :=
  [ binary main_arg0 main_arg2 main_v0 ((fun l r => Host.dotGeneral dot_S64x1024x256_S256x256_S64x1024x256_2_0_01_1_n_n none l r) : (⟨S64x1024x256, .f32⟩ : BufTy).Contents (Elt F) → (⟨S256x256, .f32⟩ : BufTy).Contents (Elt F) → (⟨S64x1024x256, .f32⟩ : BufTy).Contents (Elt F)),
    binary main_arg1 main_arg3 main_v1 ((fun l r => Host.dotGeneral dot_S64x1024x256_S256x256_S64x1024x256_2_0_01_1_n_n none l r) : (⟨S64x1024x256, .f32⟩ : BufTy).Contents (Elt F) → (⟨S256x256, .f32⟩ : BufTy).Contents (Elt F) → (⟨S64x1024x256, .f32⟩ : BufTy).Contents (Elt F)),
    binary main_v0 main_v1 main_v2 ((fun l r => Host.dotGeneral dot_S64x1024x256_S64x1024x256_S64x1024x1024_2_2_1_1_0_0 none l r) : (⟨S64x1024x256, .f32⟩ : BufTy).Contents (Elt F) → (⟨S64x1024x256, .f32⟩ : BufTy).Contents (Elt F) → (⟨S64x1024x1024, .f32⟩ : BufTy).Contents (Elt F)),
    nullary main_cst (constant S_ .f32 0x3D800000#32),
    unary main_cst main_v3 (broadcastInDim S64x1024x1024 ![] bcast_S_S64x1024x1024 : (⟨S_, .f32⟩ : BufTy).Contents (Elt F) → (⟨S64x1024x1024, .f32⟩ : BufTy).Contents (Elt F)),
    binary main_v3 main_v2 main_v4 (mulf : (⟨S64x1024x1024, .f32⟩ : BufTy).Contents (Elt F) → (⟨S64x1024x1024, .f32⟩ : BufTy).Contents (Elt F) → (⟨S64x1024x1024, .f32⟩ : BufTy).Contents (Elt F)),
    unary main_v4 main_v5 (Host.tanh : (⟨S64x1024x1024, .f32⟩ : BufTy).Contents (Elt F) → (⟨S64x1024x1024, .f32⟩ : BufTy).Contents (Elt F)),
    nullary main_cst_0 (constant S_ .f32 0x41200000#32),
    unary main_cst_0 main_v6 (broadcastInDim S64x1024x1024 ![] bcast_S_S64x1024x1024 : (⟨S_, .f32⟩ : BufTy).Contents (Elt F) → (⟨S64x1024x1024, .f32⟩ : BufTy).Contents (Elt F)),
    binary main_v6 main_v5 main_v7 (mulf : (⟨S64x1024x1024, .f32⟩ : BufTy).Contents (Elt F) → (⟨S64x1024x1024, .f32⟩ : BufTy).Contents (Elt F) → (⟨S64x1024x1024, .f32⟩ : BufTy).Contents (Elt F)),
    nullary main_c (constantI S_ 32 1#32),
    unary main_c main_v8 (broadcastInDim S64x1024x1024 ![] bcast_S_S64x1024x1024 : (⟨S_, .i32⟩ : BufTy).Contents (Elt F) → (⟨S64x1024x1024, .i32⟩ : BufTy).Contents (Elt F)),
    binary main_arg4 main_v8 main_v9 (cmpi .eq : (⟨S64x1024x1024, .i32⟩ : BufTy).Contents (Elt F) → (⟨S64x1024x1024, .i32⟩ : BufTy).Contents (Elt F) → (⟨S64x1024x1024, .i1⟩ : BufTy).Contents (Elt F)),
    nullary main_cst_1 (constant S_ .f32 0xCCBEBC20#32),
    unary main_cst_1 main_call0_v0 (id : (⟨S_, .f32⟩ : BufTy).Contents (Elt F) → (⟨S_, .f32⟩ : BufTy).Contents (Elt F)),
    unary main_call0_v0 main_call0_v1 (broadcastInDim S64x1024x1024 ![] bcast_S_S64x1024x1024 : (⟨S_, .f32⟩ : BufTy).Contents (Elt F) → (⟨S64x1024x1024, .f32⟩ : BufTy).Contents (Elt F)),
    ternary main_v9 main_call0_v1 main_v7 main_v10 (select : (⟨S64x1024x1024, .i1⟩ : BufTy).Contents (Elt F) → (⟨S64x1024x1024, .f32⟩ : BufTy).Contents (Elt F) → (⟨S64x1024x1024, .f32⟩ : BufTy).Contents (Elt F) → (⟨S64x1024x1024, .f32⟩ : BufTy).Contents (Elt F)),
    nullary main_call1_cst (constant S_ .f32 0xFF800000#32 : (⟨S_, .f32⟩ : BufTy).Contents (Elt F)),
    binary main_v10 main_call1_cst main_call1_v0 (fun x v => Host.reduce FloatOps.maximumf x v reducesTo_S64x1024x1024_S64x1024_d2 h_S_ : (⟨S64x1024x1024, .f32⟩ : BufTy).Contents (Elt F) → (⟨S_, .f32⟩ : BufTy).Contents (Elt F) → (⟨S64x1024, .f32⟩ : BufTy).Contents (Elt F)),
    nullary main_call1_cst_0 (constant S_ .f32 0xFF800000#32 : (⟨S_, .f32⟩ : BufTy).Contents (Elt F)),
    unary main_call1_cst_0 main_call1_v1 (broadcastInDim S64x1024 ![] bcast_S_S64x1024 : (⟨S_, .f32⟩ : BufTy).Contents (Elt F) → (⟨S64x1024, .f32⟩ : BufTy).Contents (Elt F)),
    binary main_call1_v1 main_call1_v0 main_call1_v2 (maximumf : (⟨S64x1024, .f32⟩ : BufTy).Contents (Elt F) → (⟨S64x1024, .f32⟩ : BufTy).Contents (Elt F) → (⟨S64x1024, .f32⟩ : BufTy).Contents (Elt F)),
    unary main_call1_v2 main_call1_v3 (broadcastInDim S64x1024x1 ![0, 1] bcast_S64x1024_S64x1024x1_0_1 : (⟨S64x1024, .f32⟩ : BufTy).Contents (Elt F) → (⟨S64x1024x1, .f32⟩ : BufTy).Contents (Elt F)),
    unary main_call1_v3 main_call1_v4 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    binary main_v10 main_call1_v4 main_call1_v5 (subf : (⟨S64x1024x1024, .f32⟩ : BufTy).Contents (Elt F) → (⟨S64x1024x1024, .f32⟩ : BufTy).Contents (Elt F) → (⟨S64x1024x1024, .f32⟩ : BufTy).Contents (Elt F)),
    unary main_call1_v5 main_call1_v6 (Host.exp : (⟨S64x1024x1024, .f32⟩ : BufTy).Contents (Elt F) → (⟨S64x1024x1024, .f32⟩ : BufTy).Contents (Elt F)),
    nullary main_call1_cst_1 (constant S_ .f32 0x00000000#32 : (⟨S_, .f32⟩ : BufTy).Contents (Elt F)),
    binary main_call1_v6 main_call1_cst_1 main_call1_v7 (fun x v => Host.reduceAdd x v reducesTo_S64x1024x1024_S64x1024_d2 h_S_ : (⟨S64x1024x1024, .f32⟩ : BufTy).Contents (Elt F) → (⟨S_, .f32⟩ : BufTy).Contents (Elt F) → (⟨S64x1024, .f32⟩ : BufTy).Contents (Elt F)),
    unary main_call1_v7 main_call1_v8 (broadcastInDim S64x1024x1 ![0, 1] bcast_S64x1024_S64x1024x1_0_1 : (⟨S64x1024, .f32⟩ : BufTy).Contents (Elt F) → (⟨S64x1024x1, .f32⟩ : BufTy).Contents (Elt F)),
    unary main_call1_v8 main_call1_v9 (Host.log : (⟨S64x1024x1, .f32⟩ : BufTy).Contents (Elt F) → (⟨S64x1024x1, .f32⟩ : BufTy).Contents (Elt F)),
    unary main_call1_v9 main_call1_v10 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    binary main_call1_v5 main_call1_v10 main_v11 (subf : (⟨S64x1024x1024, .f32⟩ : BufTy).Contents (Elt F) → (⟨S64x1024x1024, .f32⟩ : BufTy).Contents (Elt F) → (⟨S64x1024x1024, .f32⟩ : BufTy).Contents (Elt F)) ]

/-- @main is that straight line: a called function's body is its operations on the call's buffers, and a typed
    reference to a buffer whose type IS the stated type transports contents by the identity. (The two sides differ only
    by unfolding; the equation is `Eq.refl`, checked by the kernel.) -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

attribute [local irreducible] Host.reduce Host.reduceAdd in
/-- The fold of the operations at the result buffer is the last stage of the argument arrays: each operation's
    result is its function of the buffers it reads, which are earlier operations' results or arguments. -/
theorem out_eq (V : Valuation τ sig (Elt F)) :
    after ops V (Proc.devRef .tc main_v11)
      = val_main_v11 (F := F) (V (Proc.devRef .tc main_arg0)) (V (Proc.devRef .tc main_arg1)) (V (Proc.devRef .tc main_arg2))
          (V (Proc.devRef .tc main_arg3)) (V (Proc.devRef .tc main_arg4)) := by
  after_results_simp
  rfl

/-- On every device, for any float values, from any memory with zero counters: every weakly fair execution of @main
    terminates with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = val_main_v11 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v11).trans (out_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result, read one operation at a time, is the specification's array.

  At `(b, r, j)`: the two projections and the scores are the same plain sums; the scale multiplies from the other side
  (multiplication of extended reals commutes); `tanh`, `exp` and `log` are the same functions on the host as in a
  kernel; the row maximum is the fold of `max` over the row from `-∞`, after which the reference takes the maximum with
  `-∞` once more, which changes nothing; the row sum starts from the zero word, which adds nothing.
-/
import proofs.«174998_j8126078124685_2_alg».proof.Proof.RefRead
import proofs.«174998_j8126078124685_2_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.ReadP

variable (x0 x1 : S64x1024x256.Idx → Ideal .f32) (x2 x3 : S256x256.Idx → Ideal .f32) (x4 : S64x1024x1024.Idx → BitVec 32)

/-! ## The operations' index functions at an index given by coordinates -/

theorem lidx_v0 (b : Fin 64) (r : Fin 1024) (e d : Fin 256) : lidx_main_v0 (ix3 b r e) d = ix3 b r d :=
  funext fun a => Fin.ext (by match a with | ⟨0, _⟩ => rfl | ⟨1, _⟩ => rfl | ⟨2, _⟩ => rfl)
theorem ridx_v0 (b : Fin 64) (r : Fin 1024) (e d : Fin 256) : ridx_main_v0 (ix3 b r e) d = ix2 d e :=
  funext fun a => Fin.ext (by match a with | ⟨0, _⟩ => rfl | ⟨1, _⟩ => rfl)
theorem lidx_v1 (b : Fin 64) (r : Fin 1024) (e d : Fin 256) : lidx_main_v1 (ix3 b r e) d = ix3 b r d :=
  funext fun a => Fin.ext (by match a with | ⟨0, _⟩ => rfl | ⟨1, _⟩ => rfl | ⟨2, _⟩ => rfl)
theorem ridx_v1 (b : Fin 64) (r : Fin 1024) (e d : Fin 256) : ridx_main_v1 (ix3 b r e) d = ix2 d e :=
  funext fun a => Fin.ext (by match a with | ⟨0, _⟩ => rfl | ⟨1, _⟩ => rfl)
theorem lidx_v2 (b : Fin 64) (r j : Fin 1024) (e : Fin 256) : lidx_main_v2 (ix3 b r j) e = ix3 b r e :=
  funext fun a => Fin.ext (by match a with | ⟨0, _⟩ => rfl | ⟨1, _⟩ => rfl | ⟨2, _⟩ => rfl)
theorem ridx_v2 (b : Fin 64) (r j : Fin 1024) (e : Fin 256) : ridx_main_v2 (ix3 b r j) e = ix3 b j e :=
  funext fun a => Fin.ext (by match a with | ⟨0, _⟩ => rfl | ⟨1, _⟩ => rfl | ⟨2, _⟩ => rfl)
theorem idx_c1v4 (b : Fin 64) (r j : Fin 1024) : idx_main_call1_v4 (ix3 b r j) = ix3 b r (0 : Fin 1) :=
  funext fun a => Fin.ext (by match a with | ⟨0, _⟩ => rfl | ⟨1, _⟩ => rfl | ⟨2, _⟩ => rfl)
theorem idx_c1v3 (b : Fin 64) (r : Fin 1024) (u : Fin 1) : idx_main_call1_v3 (ix3 b r u) = ix2 b r :=
  funext fun a => Fin.ext (by match a with | ⟨0, _⟩ => rfl | ⟨1, _⟩ => rfl)
theorem idx_c1v10 (b : Fin 64) (r j : Fin 1024) : idx_main_call1_v10 (ix3 b r j) = ix3 b r (0 : Fin 1) :=
  funext fun a => Fin.ext (by match a with | ⟨0, _⟩ => rfl | ⟨1, _⟩ => rfl | ⟨2, _⟩ => rfl)
theorem idx_c1v8 (b : Fin 64) (r : Fin 1024) (u : Fin 1) : idx_main_call1_v8 (ix3 b r u) = ix2 b r :=
  funext fun a => Fin.ext (by match a with | ⟨0, _⟩ => rfl | ⟨1, _⟩ => rfl)
theorem idx_c1v7 (b : Fin 64) (r k : Fin 1024) : idx_main_call1_v7 (ix2 b r) k = ix3 b r k :=
  funext fun a => Fin.ext (by match a with | ⟨0, _⟩ => rfl | ⟨1, _⟩ => rfl | ⟨2, _⟩ => rfl)

/-! ## The projections and the masked, clipped scores -/

theorem qproj_apply (b : Fin 64) (r : Fin 1024) (e : Fin 256) :
    val_main_v0 (F := Ideal) x0 x2 (ix3 b r e) = Spec.projRow (fun d => x0 (ix3 b r d)) (fun d e' => x2 (ix2 d e')) e := by
  rw [val_main_v0_apply]
  exact Finset.sum_congr rfl fun d _ => by rw [lidx_v0, ridx_v0]

theorem kproj_apply (b : Fin 64) (r : Fin 1024) (e : Fin 256) :
    val_main_v1 (F := Ideal) x1 x3 (ix3 b r e) = Spec.projRow (fun d => x1 (ix3 b r d)) (fun d e' => x3 (ix2 d e')) e := by
  rw [val_main_v1_apply]
  exact Finset.sum_congr rfl fun d _ => by rw [lidx_v1, ridx_v1]

theorem scores_apply (b : Fin 64) (r j : Fin 1024) :
    val_main_v10 (F := Ideal) x0 x1 x2 x3 x4 (ix3 b r j)
      = Spec.logits (Spec.projRow (fun d => x0 (ix3 b r d)) (fun d e => x2 (ix2 d e)))
          (fun j' => Spec.projRow (fun d => x1 (ix3 b j' d)) (fun d e => x3 (ix2 d e))) (fun j' => x4 (ix3 b r j')) j := by
  have hd : val_main_v2 (F := Ideal) x0 x1 x2 x3 (ix3 b r j)
      = ∑ e : Fin 256, Spec.projRow (fun d => x0 (ix3 b r d)) (fun d e' => x2 (ix2 d e')) e
          * Spec.projRow (fun d => x1 (ix3 b j d)) (fun d e' => x3 (ix2 d e')) e := by
    rw [val_main_v2_apply]
    exact Finset.sum_congr rfl fun e _ => by rw [lidx_v2, ridx_v2, qproj_apply, kproj_apply]
  rw [val_main_v10_apply, val_main_v9_apply, val_main_v8_apply, val_main_c_apply, val_main_call0_v1_apply,
    val_main_call0_v0_apply, val_main_cst_1_apply, val_main_v7_apply, val_main_v6_apply, val_main_cst_0_apply,
    val_main_v5_apply, val_main_v4_apply, val_main_v3_apply, val_main_cst_apply, hd]
  show Scalar.select (IntOp.cmpi .eq (x4 (ix3 b r j)) 1#32) (Ideal.ofBits .f32 0xCCBEBC20#32)
      (Ideal.ofBits .f32 0x41200000#32 * Ideal.tanh (Ideal.ofBits .f32 0x3D800000#32 * _)) = _
  rw [mul_comm (Ideal.ofBits .f32 0x3D800000#32)]
  rfl

/-! ## The row log-softmax -/

/-- The reference's row maximum at `(b, r)`. -/
theorem rowmax_apply (b : Fin 64) (r : Fin 1024) :
    val_main_call1_v2 (F := Ideal) x0 x1 x2 x3 x4 (ix2 b r)
      = Spec.rowMax (fun j' => val_main_v10 (F := Ideal) x0 x1 x2 x3 x4 (ix3 b r j')) := by
  have h0 : val_main_call1_v0 (F := Ideal) x0 x1 x2 x3 x4 (ix2 b r)
      = Spec.rowMax (fun j' => val_main_v10 (F := Ideal) x0 x1 x2 x3 x4 (ix3 b r j')) := by
    unfold val_main_call1_v0
    refine (Host.reduce_eq_fold_single (FloatOps.maximumf (F := Ideal) (φ := .f32)) _ _
      reducesTo_S64x1024x1024_S64x1024_d2 (by decide) h_S_ (ix2 b r)).trans ?_
    refine congrArg (Finset.fold _ _ · _) (funext fun k =>
      congrArg (val_main_v10 (F := Ideal) x0 x1 x2 x3 x4) (funext fun ax => Fin.ext ?_))
    match ax with
    | ⟨0, _⟩ => rfl
    | ⟨1, _⟩ => rfl
    | ⟨2, _⟩ => rfl
  rw [val_main_call1_v2_apply, val_main_call1_v1_apply, val_main_call1_cst_0_apply, h0]
  exact Spec.max_rowMax _

/-- The reference's shifted scores at `(b, r, j)`. -/
theorem shifted_apply (b : Fin 64) (r j : Fin 1024) :
    val_main_call1_v5 (F := Ideal) x0 x1 x2 x3 x4 (ix3 b r j)
      = val_main_v10 (F := Ideal) x0 x1 x2 x3 x4 (ix3 b r j)
        - Spec.rowMax (fun j' => val_main_v10 (F := Ideal) x0 x1 x2 x3 x4 (ix3 b r j')) := by
  rw [val_main_call1_v5_apply, val_main_call1_v4_apply, idx_c1v4, val_main_call1_v3_apply, idx_c1v3, rowmax_apply]
  rfl

/-- The reference's result at `(b, r, j)`: the row's log-softmax. -/
theorem result_apply (b : Fin 64) (r j : Fin 1024) :
    val_main_v11 (F := Ideal) x0 x1 x2 x3 x4 (ix3 b r j)
      = Spec.logSoftmax (fun j' => val_main_v10 (F := Ideal) x0 x1 x2 x3 x4 (ix3 b r j')) j := by
  rw [val_main_v11_apply, val_main_call1_v10_apply, idx_c1v10, val_main_call1_v9_apply, val_main_call1_v8_apply, idx_c1v8,
    val_main_call1_v7_apply, val_main_call1_cst_1_apply, shifted_apply]
  show _ - Ideal.log (Ideal.ofBits .f32 0x00000000#32 + ∑ k : Fin 1024, val_main_call1_v6 (F := Ideal) x0 x1 x2 x3 x4 (idx_main_call1_v7 (ix2 b r) k)) = _
  rw [Ideal.ofBits_zero_f32, zero_add]
  refine congrArg (fun s => _ - Ideal.log s) (Finset.sum_congr rfl fun k _ => ?_)
  rw [idx_c1v7, val_main_call1_v6_apply, shifted_apply]
  rfl

/-- The reference's result array is the specification's. -/
theorem result_eq : val_main_v11 (F := Ideal) x0 x1 x2 x3 x4 = Spec.attn x0 x1 x2 x3 x4 := by
  funext i
  obtain ⟨b, r, j, rfl⟩ : ∃ (b : Fin 64) (r j : Fin 1024), i = ix3 b r j := ⟨i 0, i 1, i 2, eq_ix3 i⟩
  rw [result_apply, Spec.attn_ix3]
  unfold Spec.attnAt Spec.attnRow
  exact congrArg (fun f => Spec.logSoftmax f j) (funext fun j' => scores_apply x0 x1 x2 x3 x4 b r j')

end Cert.ReferenceIdeal.RefValue

end
-- ==== Proof.lean ====
/-
  The attention log-softmax kernel against its jnp reference, at the exact instance.

  Both programs compute, for every batch `b`, query row `r` and key row `j`,
      out[b,r,j] = (u[b,r,j] - M) - log ∑_j' exp (u[b,r,j'] - M),   M = max_j' u[b,r,j'],
      u[b,r,j]   = -10⁸ where mask[b,r,j] = 1, else 10 · tanh (2⁻⁴ · ∑_e (q wq)[b,r,e] · (k wk)[b,j,e])
  (`Cert.Spec.attn`). The kernel does it one (batch, query tile) at a time, projecting the batch's keys once, at the
  batch's first tile, into a scratch the later tile reads; changes of float format are the identity on the extended
  reals, so each block it writes back is a block of `Spec.attn` of the argument arrays, and the blocks tile the result
  (Proof/Pieces, Payload, Blocks). The reference's 32 host operations compose to the same function (Proof/RefRun,
  RefValue): its scale multiplies from the left where the kernel's multiplies from the right, its row maximum is taken
  once more against `-∞`, its row sum starts from the zero word — none changes a value. Nothing in the argument uses
  that the inputs are finite: the two sides are the same expression, index by index.

  The three frames: the kernel's two are the generated frame runs; the reference's is its run with the result dropped.
  The idealization rewrote no operation, so there is nothing to preserve.
-/
import proofs.«174998_j8126078124685_2_alg».proof.Defs
import proofs.«174998_j8126078124685_2_alg».proof.Proof.Gen.Kernel
import proofs.«174998_j8126078124685_2_alg».proof.Proof.Gen.Kernel.Frame
import proofs.«174998_j8126078124685_2_alg».proof.Proof.Gen.KernelIdeal
import proofs.«174998_j8126078124685_2_alg».proof.Proof.Gen.KernelIdeal.Frame
import proofs.«174998_j8126078124685_2_alg».proof.Proof.Gen.ReferenceIdeal
import proofs.«174998_j8126078124685_2_alg».proof.Proof.Gen.Pre_finite_inputs
import proofs.«174998_j8126078124685_2_alg».proof.Proof.Blocks
import proofs.«174998_j8126078124685_2_alg».proof.Proof.RefRun
import proofs.«174998_j8126078124685_2_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the five arguments, the kernel's result array and the reference's are both
    `Spec.attn` of those arguments. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
